-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192x1 : Shape := ⟨3, ![4, 8192, 1]⟩
abbrev S16x4x8192 : Shape := ⟨3, ![16, 4, 8192]⟩
abbrev S4x512x3 : Shape := ⟨3, ![4, 512, 3]⟩
abbrev S4x3x1024 : Shape := ⟨3, ![4, 3, 1024]⟩
abbrev S4x512x1 : Shape := ⟨3, ![4, 512, 1]⟩
abbrev S1x4x1024 : Shape := ⟨3, ![1, 4, 1024]⟩
abbrev S4x1x1024 : Shape := ⟨3, ![4, 1, 1024]⟩
abbrev S4x512x1024 : Shape := ⟨3, ![4, 512, 1024]⟩
abbrev S4x512 : Shape := ⟨2, ![4, 512]⟩
abbrev S4x1024 : Shape := ⟨2, ![4, 1024]⟩
abbrev S4x8192 : Shape := ⟨2, ![4, 8192]⟩
abbrev S_ : Shape := ⟨0, ![]⟩

abbrev nBuf : Space → Nat
  | .hbm => 17
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192x1, .f32⟩
  | .hbm, ⟨4, _⟩ => ⟨S16x4x8192, .f32⟩
  | .hbm, ⟨5, _⟩ => ⟨S4x8192, .f32⟩
  | .hbm, ⟨6, _⟩ => ⟨S_, .f32⟩
  | .hbm, ⟨7, _⟩ => ⟨S4x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x3x1024, .f32⟩
  | .local _ .vmem, ⟨3, _⟩ => ⟨S4x3x1024, .f32⟩
  | .local _ .vmem, ⟨4, _⟩ => ⟨S4x512x1, .f32⟩
  | .local _ .vmem, ⟨5, _⟩ => ⟨S4x512x1, .f32⟩
  | .local _ .vmem, ⟨6, _⟩ => ⟨S1x4x1024, .f32⟩
  | .local _ .vmem, ⟨7, _⟩ => ⟨S1x4x1024, .f32⟩
  | .local _ .vmem, ⟨8, _⟩ => ⟨S4x512x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_16 : BitVec 32 := 0#32
  let v38 : BitVec 1 := Scalar.cmpi .ne v37 c0_i32_16
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x8192x3_S4x3x8192_0_2_1 : S4x8192x3.Transposes [0, 2, 1] S4x3x8192
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x3_S4x512x3_0_0_0 : ∀ a, (![0, 0, 0] : Fin 3 → Nat) a + S4x512x3.size a ≤ S4x512x3.size a
  h_S4x512x3 : 0 < S4x512x3.numel
  inb_S4x3x1024_S4x3x1024_0_0_0 : ∀ a, (![0, 0, 0] : Fin 3 → Nat) a + S4x3x1024.size a ≤ S4x3x1024.size a
  h_S4x3x1024 : 0 < S4x3x1024.numel
  shapeCasts_S4x3x1024_S4x3x1024 : S4x3x1024.ShapeCasts S4x3x1024
  slices_S4x512x3_o0_0_0_S4x512x1 : S4x512x3.Slices ![0, 0, 0] S4x512x1
  slices_S4x512x3_o0_0_1_S4x512x1 : S4x512x3.Slices ![0, 0, 1] S4x512x1
  slices_S4x512x3_o0_0_2_S4x512x1 : S4x512x3.Slices ![0, 0, 2] S4x512x1
  slices_S4x3x1024_o0_0_0_S4x1x1024 : S4x3x1024.Slices ![0, 0, 0] S4x1x1024
  slices_S4x3x1024_o0_1_0_S4x1x1024 : S4x3x1024.Slices ![0, 1, 0] S4x1x1024
  slices_S4x3x1024_o0_2_0_S4x1x1024 : S4x3x1024.Slices ![0, 2, 0] S4x1x1024
  broadcasts_S4x512x1_S4x512x1024 : S4x512x1.Broadcasts S4x512x1024
  broadcasts_S4x1x1024_S4x512x1024 : S4x1x1024.Broadcasts S4x512x1024
  reduces_S4x512x1024_S4x512 : S4x512x1024.Reduces [2] S4x512
  shapeCasts_S4x512_S4x512x1 : S4x512.ShapeCasts S4x512x1
  reduces_S4x512x1024_S4x1024 : S4x512x1024.Reduces [1] S4x1024
  shapeCasts_S4x1024_S1x4x1024 : S4x1024.ShapeCasts S1x4x1024
  inb_S1x4x1024_S1x4x1024_0_0_0 : ∀ a, (![0, 0, 0] : Fin 3 → Nat) a + S1x4x1024.size a ≤ S1x4x1024.size a
  h_S1x4x1024 : 0 < S1x4x1024.numel
  shapeCasts_S4x8192x1_S4x8192 : S4x8192x1.ShapeCasts S4x8192
  reducesTo_S16x4x8192_S4x8192_d0 : S16x4x8192.ReducesTo [0] S4x8192
  h_S_ : 0 < S_.numel
  reducesTo_S4x8192_S_d0_1 : S4x8192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x1024.size a ≤ S4x3x8192.size a
  hwx0_1 : ∀ i : grid0.Coords, EltTy.bits .f32 = 32 ∨ (Rect.block (s := S4x3x8192) S4x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S4x8192x1.size a
  hwx0_2 : ∀ i : grid0.Coords, EltTy.bits .f32 = 32 ∨ (Rect.block (s := S4x8192x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024.size a ≤ S16x4x8192.size a
  hwx0_3 : ∀ i : grid0.Coords, EltTy.bits .f32 = 32 ∨ (Rect.block (s := S16x4x8192) S1x4x1024.size (cc0_transform_3 i) (hinb0_3 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x4x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What one run of the body leaves behind, as values, at any float instance. The scratch ends at the running row
  minimum of the tile over what it held before — over +∞ at the first tile of a row block, where the body resets
  it first; the second output's block ends at the tile's column minimum; and at the last tile of a row block the
  first output's block receives the scratch as just updated. Each is read off the one store that covers the
  buffer, whose loads read the whole input blocks.
-/
import proofs.«164395_j85478439125595_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0, 0] : Fin 3 → Nat) = fun _ => 0 := funext fun a => by fin_cases a <;> rfl

/-- First tile of a row block: the scratch is reset to +∞ and then holds the row minimum over that. -/
theorem sout_A (c : Dev nD) (i : grid0.Coords) (a2 : Memref sig .tc .vmem S4x512x3 .f32) (h2 : a2.IsWhole) (a3 : Memref sig .tc .vmem S4x3x1024 .f32) (h3 : a3.IsWhole) (a4 : Memref sig .tc .vmem S4x512x1 .f32) (h4 : a4.IsWhole) (a5 : Memref sig .tc .vmem S1x4x1024 .f32) (h5 : a5.IsWhole) (a6 : Memref sig .tc .vmem S4x512x1 .f32) (h6 : a6.IsWhole) (hc0 : cond0_0 i) (hc1 : ¬cond0_1 i)
    (x0 : Vec F S4x512x3 .f32) (x1 : Vec F S4x3x1024 .f32) :
    sout0_A_0 c i a2 h2 a3 h3 a4 h4 a5 h5 a6 h6 hc0 hc1 x0 x1 = k0_pay3 x0 x1 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S4x512x1) hz, View.readCov_unit_zero (S := S4x512x1) _ hz]
  simp only [View.readAt_eq_ld, h2.read_unread, h3.read_unread, View.ld_unit_zero (S := S4x512x3) hz,
    View.ld_unit_zero (S := S4x3x1024) hz]

/-- A middle tile: the scratch holds the row minimum over what it held. -/
theorem sout_B (c : Dev nD) (i : grid0.Coords) (a2 : Memref sig .tc .vmem S4x512x3 .f32) (h2 : a2.IsWhole) (a3 : Memref sig .tc .vmem S4x3x1024 .f32) (h3 : a3.IsWhole) (a4 : Memref sig .tc .vmem S4x512x1 .f32) (h4 : a4.IsWhole) (a5 : Memref sig .tc .vmem S1x4x1024 .f32) (h5 : a5.IsWhole) (a6 : Memref sig .tc .vmem S4x512x1 .f32) (h6 : a6.IsWhole) (hc0 : ¬cond0_0 i) (hc1 : ¬cond0_1 i)
    (x0 : Vec F S4x512x3 .f32) (x1 : Vec F S4x3x1024 .f32) (xs : Vec F S4x512x1 .f32) :
    sout0_B_0 c i a2 h2 a3 h3 a4 h4 a5 h5 a6 h6 hc0 hc1 x0 x1 xs = k0_pay3 x0 x1 xs := by
  unfold sout0_B_0
  rw [View.read_writes_eq_canon _ _ _ (scover0_B_0 c i a2 h2 a3 h3 a4 h4 a5 h5 a6 h6 hc0 hc1 x0 x1 xs)]
  unfold kernelRun0_B
  dsimp only
  sl_unfold_words
  rw [View.canon_unit_zero (S := S4x512x1) hz]
  simp only [View.readAt_eq_ld, h2.read_unread, h3.read_unread, h6.read_unread, View.ld_unit_zero (S := S4x512x3) hz,
    View.ld_unit_zero (S := S4x3x1024) hz, View.ld_unit_zero (S := S4x512x1) hz]

/-- The last tile: the same for the scratch. -/
theorem sout_C (c : Dev nD) (i : grid0.Coords) (a2 : Memref sig .tc .vmem S4x512x3 .f32) (h2 : a2.IsWhole) (a3 : Memref sig .tc .vmem S4x3x1024 .f32) (h3 : a3.IsWhole) (a4 : Memref sig .tc .vmem S4x512x1 .f32) (h4 : a4.IsWhole) (a5 : Memref sig .tc .vmem S1x4x1024 .f32) (h5 : a5.IsWhole) (a6 : Memref sig .tc .vmem S4x512x1 .f32) (h6 : a6.IsWhole) (hc0 : ¬cond0_0 i) (hc1 : cond0_1 i)
    (x0 : Vec F S4x512x3 .f32) (x1 : Vec F S4x3x1024 .f32) (xs : Vec F S4x512x1 .f32) :
    sout0_C_0 c i a2 h2 a3 h3 a4 h4 a5 h5 a6 h6 hc0 hc1 x0 x1 xs = k0_pay3 x0 x1 xs := by
  unfold sout0_C_0
  rw [View.read_writes_eq_canon _ _ _ (scover0_C_0 c i a2 h2 a3 h3 a4 h4 a5 h5 a6 h6 hc0 hc1 x0 x1 xs)]
  unfold kernelRun0_C
  dsimp only
  sl_unfold_words
  rw [View.canon_unit_zero (S := S4x512x1) hz]
  simp only [View.readAt_eq_ld, h2.read_unread, h3.read_unread, h6.read_unread, View.ld_unit_zero (S := S4x512x3) hz,
    View.ld_unit_zero (S := S4x3x1024) hz, View.ld_unit_zero (S := S4x512x1) hz]

/-- The last tile: the first output's block receives the scratch as just updated. -/
theorem out_C_2 (c : Dev nD) (i : grid0.Coords) (a2 : Memref sig .tc .vmem S4x512x3 .f32) (h2 : a2.IsWhole) (a3 : Memref sig .tc .vmem S4x3x1024 .f32) (h3 : a3.IsWhole) (a4 : Memref sig .tc .vmem S4x512x1 .f32) (h4 : a4.IsWhole) (a5 : Memref sig .tc .vmem S1x4x1024 .f32) (h5 : a5.IsWhole) (a6 : Memref sig .tc .vmem S4x512x1 .f32) (h6 : a6.IsWhole) (hc0 : ¬cond0_0 i) (hc1 : cond0_1 i)
    (x0 : Vec F S4x512x3 .f32) (x1 : Vec F S4x3x1024 .f32) (xs : Vec F S4x512x1 .f32) :
    out0_C_2 c i a2 h2 a3 h3 a4 h4 a5 h5 a6 h6 hc0 hc1 x0 x1 xs = k0_pay3 x0 x1 xs := by
  unfold out0_C_2
  rw [View.read_writes_eq_canon _ _ _ (cover0_C_2 c i a2 h2 a3 h3 a4 h4 a5 h5 a6 h6 hc0 hc1 x0 x1 xs)]
  unfold kernelRun0_C
  dsimp only
  sl_unfold_words
  rw [View.canon_unit_zero (S := S4x512x1) hz, View.readCov_unit_zero (S := S4x512x1) _ hz]
  simp only [View.readAt_eq_ld, h2.read_unread, h3.read_unread, h6.read_unread, View.ld_unit_zero (S := S4x512x3) hz,
    View.ld_unit_zero (S := S4x3x1024) hz, View.ld_unit_zero (S := S4x512x1) hz]

/-- Every tile: the second output's block is the tile's column minimum. -/
theorem out_A_3 (c : Dev nD) (i : grid0.Coords) (a2 : Memref sig .tc .vmem S4x512x3 .f32) (h2 : a2.IsWhole) (a3 : Memref sig .tc .vmem S4x3x1024 .f32) (h3 : a3.IsWhole) (a4 : Memref sig .tc .vmem S4x512x1 .f32) (h4 : a4.IsWhole) (a5 : Memref sig .tc .vmem S1x4x1024 .f32) (h5 : a5.IsWhole) (a6 : Memref sig .tc .vmem S4x512x1 .f32) (h6 : a6.IsWhole) (hc0 : cond0_0 i) (hc1 : ¬cond0_1 i)
    (x0 : Vec F S4x512x3 .f32) (x1 : Vec F S4x3x1024 .f32) :
    out0_A_3 c i a2 h2 a3 h3 a4 h4 a5 h5 a6 h6 hc0 hc1 x0 x1 = k0_pay4 x0 x1 := by
  unfold out0_A_3
  rw [View.read_writes_eq_canon _ _ _ (cover0_A_3 c i a2 h2 a3 h3 a4 h4 a5 h5 a6 h6 hc0 hc1 x0 x1)]
  unfold kernelRun0_A
  dsimp only
  sl_unfold_words
  rw [View.canon_unit_zero (S := S1x4x1024) hz]
  simp only [View.readAt_eq_ld, h2.read_unread, h3.read_unread, View.ld_unit_zero (S := S4x512x3) hz,
    View.ld_unit_zero (S := S4x3x1024) hz]

theorem out_B_3 (c : Dev nD) (i : grid0.Coords) (a2 : Memref sig .tc .vmem S4x512x3 .f32) (h2 : a2.IsWhole) (a3 : Memref sig .tc .vmem S4x3x1024 .f32) (h3 : a3.IsWhole) (a4 : Memref sig .tc .vmem S4x512x1 .f32) (h4 : a4.IsWhole) (a5 : Memref sig .tc .vmem S1x4x1024 .f32) (h5 : a5.IsWhole) (a6 : Memref sig .tc .vmem S4x512x1 .f32) (h6 : a6.IsWhole) (hc0 : ¬cond0_0 i) (hc1 : ¬cond0_1 i)
    (x0 : Vec F S4x512x3 .f32) (x1 : Vec F S4x3x1024 .f32) (xs : Vec F S4x512x1 .f32) :
    out0_B_3 c i a2 h2 a3 h3 a4 h4 a5 h5 a6 h6 hc0 hc1 x0 x1 xs = k0_pay4 x0 x1 := by
  unfold out0_B_3
  rw [View.read_writes_eq_canon _ _ _ (cover0_B_3 c i a2 h2 a3 h3 a4 h4 a5 h5 a6 h6 hc0 hc1 x0 x1 xs)]
  unfold kernelRun0_B
  dsimp only
  sl_unfold_words
  rw [View.canon_unit_zero (S := S1x4x1024) hz]
  simp only [View.readAt_eq_ld, h2.read_unread, h3.read_unread, View.ld_unit_zero (S := S4x512x3) hz,
    View.ld_unit_zero (S := S4x3x1024) hz]

theorem out_C_3 (c : Dev nD) (i : grid0.Coords) (a2 : Memref sig .tc .vmem S4x512x3 .f32) (h2 : a2.IsWhole) (a3 : Memref sig .tc .vmem S4x3x1024 .f32) (h3 : a3.IsWhole) (a4 : Memref sig .tc .vmem S4x512x1 .f32) (h4 : a4.IsWhole) (a5 : Memref sig .tc .vmem S1x4x1024 .f32) (h5 : a5.IsWhole) (a6 : Memref sig .tc .vmem S4x512x1 .f32) (h6 : a6.IsWhole) (hc0 : ¬cond0_0 i) (hc1 : cond0_1 i)
    (x0 : Vec F S4x512x3 .f32) (x1 : Vec F S4x3x1024 .f32) (xs : Vec F S4x512x1 .f32) :
    out0_C_3 c i a2 h2 a3 h3 a4 h4 a5 h5 a6 h6 hc0 hc1 x0 x1 xs = k0_pay4 x0 x1 := by
  unfold out0_C_3
  rw [View.read_writes_eq_canon _ _ _ (cover0_C_3 c i a2 h2 a3 h3 a4 h4 a5 h5 a6 h6 hc0 hc1 x0 x1 xs)]
  unfold kernelRun0_C
  dsimp only
  sl_unfold_words
  rw [View.canon_unit_zero (S := S1x4x1024) hz]
  simp only [View.readAt_eq_ld, h2.read_unread, h3.read_unread, View.ld_unit_zero (S := S4x512x3) hz,
    View.ld_unit_zero (S := S4x3x1024) hz]

end Cert.KernelIdeal.Pieces

end
-- ==== Proof.ChamferSpec.lean ====
/-
  The mathematics of the chamfer distance between two clouds of 4 × 8192 points of 3-space, over the extended
  reals: the squared distance of two points as the three coordinate differences squared and added in order; for
  each point of the first cloud the least squared distance to a point of the second (a minimum over the second
  cloud, started from +∞), and the same with the clouds exchanged. A minimum taken tile by tile, or in any other
  grouping, is the same number, because a bound lies below a minimum exactly when it lies below every member.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud: 4 batches of 8192 points of 3-space, each coordinate an extended real. -/
abbrev Cloud : Type := (⟨3, ![4, 8192, 3]⟩ : Shape).Idx → EReal

/-- The squared distance between point `n` of `p` and point `m` of `q` in batch `b`: the three coordinate
    differences, each squared, added first to last. -/
def sqDist (p q : Cloud) (b : Fin 4) (n m : Fin 8192) : EReal :=
  (p (ix3 b n (0 : Fin 3)) - q (ix3 b m (0 : Fin 3))) * (p (ix3 b n (0 : Fin 3)) - q (ix3 b m (0 : Fin 3)))
    + (p (ix3 b n (1 : Fin 3)) - q (ix3 b m (1 : Fin 3))) * (p (ix3 b n (1 : Fin 3)) - q (ix3 b m (1 : Fin 3)))
    + (p (ix3 b n (2 : Fin 3)) - q (ix3 b m (2 : Fin 3))) * (p (ix3 b n (2 : Fin 3)) - q (ix3 b m (2 : Fin 3)))

/-- The least squared distance from point `n` of `p` to a point of `q`: the minimum over `q`'s points, from +∞. -/
def nearRow (p q : Cloud) (b : Fin 4) (n : Fin 8192) : EReal :=
  (Finset.univ : Finset (Fin 8192)).fold min ⊤ (fun m => sqDist p q b n m)

/-- The least squared distance from point `m` of `q` to a point of `p`: the minimum over `p`'s points, from +∞. -/
def nearCol (p q : Cloud) (b : Fin 4) (m : Fin 8192) : EReal :=
  (Finset.univ : Finset (Fin 8192)).fold min ⊤ (fun n => sqDist p q b n m)

/-- Every coordinate of the cloud is a real number (neither infinity): what the algebra of squares needs. -/
def AllReal (p : Cloud) : Prop := ∀ i, ∃ r : ℝ, p i = (r : EReal)

/-- A bound lies below a minimum started from +∞ exactly when it lies below every member. -/
theorem le_foldMin_iff {ι : Type} [Fintype ι] (f : ι → EReal) (c : EReal) :
    c ≤ (Finset.univ : Finset ι).fold min ⊤ f ↔ ∀ k, c ≤ f k := by
  rw [Finset.le_fold_min]
  exact ⟨fun h k => h.2 k (Finset.mem_univ k), fun h => ⟨le_top, fun k _ => h k⟩⟩

/-- Two extended reals with the same lower bounds are equal. -/
theorem eq_of_le_iff {x y : EReal} (h : ∀ c : EReal, c ≤ x ↔ c ≤ y) : x = y :=
  le_antisymm ((h x).mp le_rfl) ((h y).mpr le_rfl)

/-! The float patterns the two programs spell, as the extended reals they denote. -/

/-- The pattern of +∞ denotes the top element. -/
theorem ofBits_inf : Ideal.ofBits .f32 0x7F800000#32 = ⊤ := by
  simp [Ideal.ofBits, Ideal.ieee]

/-- The pattern of `2.0` denotes the real 2. -/
theorem ofBits_two : Ideal.ofBits .f32 0x40000000#32 = ((2 : ℝ) : EReal) := by
  simp [Ideal.ofBits, Ideal.ieee, -EReal.coe_mul]; norm_num

end Cert.Chamfer

end
-- ==== Proof.LibMinReduce.lean ====
/-
  A law of the ideal instance, for any shapes and any float type: a minimum taken along ONE axis of an array is, at
  each index of the result, the minimum over that axis's coordinates of the array's entries, started from the
  accumulator's value — the counterpart for minima of the library's single-axis law for maxima. With it a row
  minimum or a column minimum reads as a fold of `min` over a `Fin`, which a proof can bound member by member.
-/
import Idealize.ShloMosaic.PureOps.Ideal.Laws

noncomputable section

namespace Cert.Lib.MinReduce

open Idealize.ShloMosaic

/-- A minimum taken along one axis, at the ideal instance, is the minimum over that axis's coordinates from the
    accumulator's value: at result index `j` the fold of `min` over `k` of the source at `j` with `k` inserted on the
    reduced axis. -/
theorem multiReduction_min_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.Lib.MinReduce

end
-- ==== Proof.TileReads.lean ====
/-
  One tile of the pairwise squared distances, read entry by entry at the ideal instance: for 512 points of the
  first cloud against 1024 points of the second (the second stored coordinate-major), the entry at (b, r, q) is
  the three coordinate differences squared and added in order. The running row minimum keeps, for each of the
  512 points, the lesser of what it held and the least entry of its row; the column minimum is the least entry
  of each column over the 512 rows. Both minima start from +∞, so a bound lies below them exactly when it lies
  below every entry they range over.
-/
import proofs.«164395_j85478439125595_2_alg».proof.Proof.Gen.KernelIdeal.Skeleton
import proofs.«164395_j85478439125595_2_alg».proof.Proof.ChamferSpec
import proofs.«164395_j85478439125595_2_alg».proof.Proof.LibMinReduce
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Cert.Chamfer Cert.Lib.MinReduce Idealize.ShloMosaic Idealize.ShloMosaic.ValueIdx

/-- The squared distance of row point `r` and column point `q` of a tile in batch `b`. -/
def tileDist (x0 : FVec Ideal S4x512x3 .f32) (x1 : FVec Ideal S4x3x1024 .f32) (b : Fin 4) (r : Fin 512) (q : Fin 1024) : EReal :=
  (x0 (ix3 b r (0 : Fin 3)) - x1 (ix3 b (0 : Fin 3) q)) * (x0 (ix3 b r (0 : Fin 3)) - x1 (ix3 b (0 : Fin 3) q))
    + (x0 (ix3 b r (1 : Fin 3)) - x1 (ix3 b (1 : Fin 3) q)) * (x0 (ix3 b r (1 : Fin 3)) - x1 (ix3 b (1 : Fin 3) q))
    + (x0 (ix3 b r (2 : Fin 3)) - x1 (ix3 b (2 : Fin 3) q)) * (x0 (ix3 b r (2 : Fin 3)) - x1 (ix3 b (2 : Fin 3) q))

/-- Coordinate `k` of the row points, spread along the columns: at (b, r, q) it is the row point's coordinate. -/
theorem rowCoord_apply (x0 : FVec Ideal S4x512x3 .f32) (off : Fin 3 → Nat) (h : S4x512x3.Slices off S4x512x1)
    (hb : S4x512x1.Broadcasts S4x512x1024) (k : Fin 3) (hoff : off = ![0, 0, k.val]) (b : Fin 4) (r : Fin 512) (q : Fin 1024) :
    broadcastTo S4x512x1024 (extractStridedSlice S4x512x1 off x0 h) hb (ix3 b r q) = x0 (ix3 b r k) := by
  subst hoff
  refine (broadcastTo_apply _ hb (ix3 b r q) (ix3 b r (0 : Fin 1)) fun a => ?_).trans
    (extractStridedSlice_apply _ x0 h (ix3 b r (0 : Fin 1)) (ix3 b r k) fun a => ?_)
  · match a with
    | ⟨0, _⟩ => show b.val = if (4 : Nat) = 1 then 0 else b.val; rw [if_neg (by decide)]
    | ⟨1, _⟩ => show r.val = if (512 : Nat) = 1 then 0 else r.val; rw [if_neg (by decide)]
    | ⟨2, _⟩ => show 0 = if (1 : Nat) = 1 then 0 else q.val; rw [if_pos rfl]
  · match a with
    | ⟨0, _⟩ => show b.val = 0 + b.val; omega
    | ⟨1, _⟩ => show r.val = 0 + r.val; omega
    | ⟨2, _⟩ => show k.val = k.val + 0; omega

/-- Coordinate `k` of the column points, spread down the rows: at (b, r, q) it is the column point's coordinate. -/
theorem colCoord_apply (x1 : FVec Ideal S4x3x1024 .f32) (off : Fin 3 → Nat) (h : S4x3x1024.Slices off S4x1x1024)
    (hb : S4x1x1024.Broadcasts S4x512x1024) (hc : S4x3x1024.ShapeCasts S4x3x1024) (k : Fin 3) (hoff : off = ![0, k.val, 0])
    (b : Fin 4) (r : Fin 512) (q : Fin 1024) :
    broadcastTo S4x512x1024 (extractStridedSlice S4x1x1024 off (shapeCast S4x3x1024 x1 hc) h) hb (ix3 b r q) = x1 (ix3 b k q) := by
  subst hoff
  rw [shapeCast_self]
  refine (broadcastTo_apply _ hb (ix3 b r q) (ix3 b (0 : Fin 1) q) fun a => ?_).trans
    (extractStridedSlice_apply _ x1 h (ix3 b (0 : Fin 1) q) (ix3 b k q) fun a => ?_)
  · match a with
    | ⟨0, _⟩ => show b.val = if (4 : Nat) = 1 then 0 else b.val; rw [if_neg (by decide)]
    | ⟨1, _⟩ => show 0 = if (1 : Nat) = 1 then 0 else r.val; rw [if_pos rfl]
    | ⟨2, _⟩ => show q.val = if (1024 : Nat) = 1 then 0 else q.val; rw [if_neg (by decide)]
  · match a with
    | ⟨0, _⟩ => show b.val = 0 + b.val; omega
    | ⟨1, _⟩ => show k.val = k.val + 0; omega
    | ⟨2, _⟩ => show q.val = 0 + q.val; omega

/-- The tile of squared distances the body computes, at (b, r, q). -/
theorem pay2_apply (x0 : FVec Ideal S4x512x3 .f32) (x1 : FVec Ideal S4x3x1024 .f32) (b : Fin 4) (r : Fin 512) (q : Fin 1024) :
    k0_pay2 (F := Ideal) x0 x1 (ix3 b r q) = tileDist x0 x1 b r q := by
  have a0 := rowCoord_apply x0 ![0, 0, 0] slices_S4x512x3_o0_0_0_S4x512x1 broadcasts_S4x512x1_S4x512x1024 (0 : Fin 3) rfl b r q
  have a1 := rowCoord_apply x0 ![0, 0, 1] slices_S4x512x3_o0_0_1_S4x512x1 broadcasts_S4x512x1_S4x512x1024 (1 : Fin 3) rfl b r q
  have a2 := rowCoord_apply x0 ![0, 0, 2] slices_S4x512x3_o0_0_2_S4x512x1 broadcasts_S4x512x1_S4x512x1024 (2 : Fin 3) rfl b r q
  have b0 := colCoord_apply x1 ![0, 0, 0] slices_S4x3x1024_o0_0_0_S4x1x1024 broadcasts_S4x1x1024_S4x512x1024 shapeCasts_S4x3x1024_S4x3x1024 (0 : Fin 3) rfl b r q
  have b1 := colCoord_apply x1 ![0, 1, 0] slices_S4x3x1024_o0_1_0_S4x1x1024 broadcasts_S4x1x1024_S4x512x1024 shapeCasts_S4x3x1024_S4x3x1024 (1 : Fin 3) rfl b r q
  have b2 := colCoord_apply x1 ![0, 2, 0] slices_S4x3x1024_o0_2_0_S4x1x1024 broadcasts_S4x1x1024_S4x512x1024 shapeCasts_S4x3x1024_S4x3x1024 (2 : Fin 3) rfl b r q
  unfold tileDist
  rw [← a0, ← a1, ← a2, ← b0, ← b1, ← b2]
  rfl

/-- A [4, 512] array viewed as a [4, 512, 1] column reads (b, r) at (b, r, 0). -/
theorem cast_col {α : Type} (v : (⟨2, ![4, 512]⟩ : Shape).Idx → α) (h : (⟨2, ![4, 512]⟩ : Shape).ShapeCasts ⟨3, ![4, 512, 1]⟩)
    (b : Fin 4) (r : Fin 512) (u : Fin 1) : shapeCast ⟨3, ![4, 512, 1]⟩ v h (ix3 b r u) = v (ix2 b r) :=
  shapeCast_apply v h _ _ (by
    have hu : u.val = 0 := by omega
    rw [Shape.rowMajor_val_two, Shape.rowMajor_val_three]
    show b.val * 512 + r.val = (b.val * 512 + r.val) * 1 + u.val
    omega)

/-- The least entry of row (b, r) of the tile. -/
theorem rowMin_apply (x0 : FVec Ideal S4x512x3 .f32) (x1 : FVec Ideal S4x3x1024 .f32) (b : Fin 4) (r : Fin 512) :
    multiReduction .minimumf [2] S4x512 (k0_pay2 (F := Ideal) x0 x1) 0x7F800000#32 reduces_S4x512x1024_S4x512 (.inl rfl) rfl (ix2 b r)
      = (Finset.univ : Finset (Fin 1024)).fold min ⊤ (fun q => tileDist x0 x1 b r q) := by
  refine (multiReduction_min_single _ _ reduces_S4x512x1024_S4x512 _ _ (ix2 b r)).trans ?_
  rw [Ideal.ofBits_def, ofBits_inf]
  refine congrArg (fun f => (Finset.univ : Finset (Fin 1024)).fold min ⊤ f) (funext fun q => ?_)
  refine Eq.trans ?_ (pay2_apply x0 x1 b r q)
  refine congrArg (k0_pay2 (F := Ideal) x0 x1) (funext fun a => Fin.ext ?_)
  match a with
  | ⟨0, _⟩ => rfl
  | ⟨1, _⟩ => rfl
  | ⟨2, _⟩ => rfl

/-- The least entry of column (b, q) of the tile. -/
theorem colMin_apply (x0 : FVec Ideal S4x512x3 .f32) (x1 : FVec Ideal S4x3x1024 .f32) (b : Fin 4) (q : Fin 1024) :
    multiReduction .minimumf [1] S4x1024 (k0_pay2 (F := Ideal) x0 x1) 0x7F800000#32 reduces_S4x512x1024_S4x1024 (.inl rfl) rfl (ix2 b q)
      = (Finset.univ : Finset (Fin 512)).fold min ⊤ (fun r => tileDist x0 x1 b r q) := by
  refine (multiReduction_min_single _ _ reduces_S4x512x1024_S4x1024 _ _ (ix2 b q)).trans ?_
  rw [Ideal.ofBits_def, ofBits_inf]
  refine congrArg (fun f => (Finset.univ : Finset (Fin 512)).fold min ⊤ f) (funext fun r => ?_)
  refine Eq.trans ?_ (pay2_apply x0 x1 b r q)
  refine congrArg (k0_pay2 (F := Ideal) x0 x1) (funext fun a => Fin.ext ?_)
  match a with
  | ⟨0, _⟩ => rfl
  | ⟨1, _⟩ => rfl
  | ⟨2, _⟩ => rfl

/-- What the scratch is reset to: +∞ everywhere. -/
theorem pay1_apply (i : S4x512x1.Idx) : k0_pay1 (F := Ideal) i = ⊤ := by
  unfold k0_pay1
  rw [shapeCast_self]
  exact ofBits_inf

/-- The running row minimum after a tile: a bound lies below it exactly when it lies below what the scratch held
    and below every entry of the row. -/
theorem pay3_le_iff (x0 : FVec Ideal S4x512x3 .f32) (x1 : FVec Ideal S4x3x1024 .f32) (xs : FVec Ideal S4x512x1 .f32)
    (b : Fin 4) (r : Fin 512) (c : EReal) :
    c ≤ k0_pay3 (F := Ideal) x0 x1 xs (ix3 b r (0 : Fin 1))
      ↔ c ≤ xs (ix3 b r (0 : Fin 1)) ∧ ∀ q : Fin 1024, c ≤ tileDist x0 x1 b r q := by
  have e : k0_pay3 (F := Ideal) x0 x1 xs (ix3 b r (0 : Fin 1))
      = min (xs (ix3 b r (0 : Fin 1))) ((Finset.univ : Finset (Fin 1024)).fold min ⊤ (fun q => tileDist x0 x1 b r q)) := by
    unfold k0_pay3
    rw [shapeCast_self]
    refine congrArg (min (xs (ix3 b r (0 : Fin 1)))) ?_
    exact (cast_col _ shapeCasts_S4x512_S4x512x1 b r 0).trans (rowMin_apply x0 x1 b r)
  rw [e, le_min_iff, le_foldMin_iff]

/-- The column minimum of a tile: a bound lies below it exactly when it lies below every entry of the column. -/
theorem pay4_le_iff (x0 : FVec Ideal S4x512x3 .f32) (x1 : FVec Ideal S4x3x1024 .f32)
    (b : Fin 4) (q : Fin 1024) (c : EReal) :
    c ≤ k0_pay4 (F := Ideal) x0 x1 (ix3 (0 : Fin 1) b q) ↔ ∀ r : Fin 512, c ≤ tileDist x0 x1 b r q := by
  have e : k0_pay4 (F := Ideal) x0 x1 (ix3 (0 : Fin 1) b q)
      = (Finset.univ : Finset (Fin 512)).fold min ⊤ (fun r => tileDist x0 x1 b r q) := by
    unfold k0_pay4
    exact (shapeCast_ab_1ab_apply _ shapeCasts_S4x1024_S1x4x1024 0 b q).trans (colMin_apply x0 x1 b q)
  rw [e, le_foldMin_iff]

end Cert.KernelIdeal.Tile

end
-- ==== Proof.BlockReads.lean ====
/-
  The blocks the grid hands the body, read off the two clouds. Grid point t stands for row block t / 8 (512
  points of the first cloud) and column block t % 8 (1024 points of the second). The first window's block holds
  coordinate k of point t / 8 · 512 + r of the first cloud at (b, r, k); the second cloud reaches the region
  coordinate-major, so the second window's block holds coordinate k of point t % 8 · 1024 + q at (b, k, q).
  Hence the tile's entry at (b, r, q) is the squared distance of those two points.
-/
import proofs.«164395_j85478439125595_2_alg».proof.Proof.Gen.KernelIdeal.Frame
import proofs.«164395_j85478439125595_2_alg».proof.Proof.TileReads
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Cert.KernelIdeal.Tile Cert.Chamfer
open Idealize.ShloMosaic Idealize.ShloMosaic.TcCoe Idealize.ShloMosaic.ValueIdx Idealize.SL.Sem

variable (m : (ℓ : Loc nD τ sig) → Buf (Elt Ideal) ℓ)

/-- The first cloud, as launched. -/
abbrev cloudA (c : Dev nD) : Cloud := m ((c : Thread nD τ).loc main_arg0)
/-- The second cloud, as launched. -/
abbrev cloudB (c : Dev nD) : Cloud := m ((c : Thread nD τ).loc main_arg1)

/-- The block indices of the four windows at every grid point: row block t / 8, column block t % 8. -/
theorem idx_facts : ∀ t : Fin cfg0.N,
    (win0_0.index t (0 : Fin 3) = 0 ∧ win0_0.index t (1 : Fin 3) = t.val / 8 ∧ win0_0.index t (2 : Fin 3) = 0)
    ∧ (win0_1.index t (0 : Fin 3) = 0 ∧ win0_1.index t (1 : Fin 3) = 0 ∧ win0_1.index t (2 : Fin 3) = t.val % 8)
    ∧ (win0_2.index t (0 : Fin 3) = 0 ∧ win0_2.index t (1 : Fin 3) = t.val / 8 ∧ win0_2.index t (2 : Fin 3) = 0)
    ∧ (win0_3.index t (0 : Fin 3) = t.val / 8 ∧ win0_3.index t (1 : Fin 3) = 0 ∧ win0_3.index t (2 : Fin 3) = t.val % 8) :=
  (by decide +kernel : ∀ t : Fin grid0.N, _)

/-- The second cloud as the region finds it: each batch transposed, coordinates first. -/
theorem V_v0 (c : Dev nD) : (V m c main_v0 : S4x3x8192.Idx → EReal)
    = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- The first window's block at point t, at (b, r, k): coordinate k of point t / 8 · 512 + r of the first cloud. -/
theorem iblk0_apply (c : Dev nD) (t : Fin cfg0.N) (b : Fin 4) (r : Fin 512) (k : Fin 3) (n : Fin 8192)
    (hn : n.val = t.val / 8 * 512 + r.val) :
    (iblk m c 0 t : FVec Ideal S4x512x3 .f32) (ix3 b r k) = cloudA m c (ix3 b n k) := by
  obtain ⟨⟨e0, e1, e2⟩, -, -, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 4 + 1 * b.val = b.val; rw [e0]; omega
  | ⟨1, _⟩ => show win0_0.index t (1 : Fin 3) * 512 + 1 * r.val = n.val; rw [e1, hn]; omega
  | ⟨2, _⟩ => show win0_0.index t (2 : Fin 3) * 3 + 1 * k.val = k.val; rw [e2]; omega

/-- The second window's block at point t, at (b, k, q): coordinate k of point t % 8 · 1024 + q of the second cloud. -/
theorem iblk1_apply (c : Dev nD) (t : Fin cfg0.N) (b : Fin 4) (k : Fin 3) (q : Fin 1024) (mm : Fin 8192)
    (hm : mm.val = t.val % 8 * 1024 + q.val) :
    (iblk m c 1 t : FVec Ideal S4x3x1024 .f32) (ix3 b k q) = cloudB m c (ix3 b mm k) := by
  obtain ⟨-, ⟨e0, e1, e2⟩, -, -⟩ := idx_facts t
  unfold iblk
  rw [View.read_apply]
  show V m c main_v0 _ = _
  rw [V_v0]
  refine transpose_apply _ _ _ _ (ix3 b mm k) fun a => ?_
  match a with
  | ⟨0, _⟩ => show b.val = win0_1.index t (0 : Fin 3) * 4 + 1 * b.val; rw [e0]; omega
  | ⟨1, _⟩ => show k.val = win0_1.index t (1 : Fin 3) * 3 + 1 * k.val; rw [e1]; omega
  | ⟨2, _⟩ => show mm.val = win0_1.index t (2 : Fin 3) * 1024 + 1 * q.val; rw [e2, hm]; omega

/-- The tile at point t, at (b, r, q): the squared distance of point t / 8 · 512 + r of the first cloud and point
    t % 8 · 1024 + q of the second. -/
theorem tile_eq (c : Dev nD) (t : Fin cfg0.N) (b : Fin 4) (r : Fin 512) (q : Fin 1024) (n mm : Fin 8192)
    (hn : n.val = t.val / 8 * 512 + r.val) (hm : mm.val = t.val % 8 * 1024 + q.val) :
    tileDist (iblk m c 0 t) (iblk m c 1 t) b r q = sqDist (cloudA m c) (cloudB m c) b n mm := by
  unfold tileDist sqDist
  rw [iblk0_apply m c t b r 0 n hn, iblk0_apply m c t b r 1 n hn, iblk0_apply m c t b r 2 n hn,
    iblk1_apply m c t b 0 q mm hm, iblk1_apply m c t b 1 q mm hm, iblk1_apply m c t b 2 q mm hm]

end Cert.KernelIdeal.Blocks

end
-- ==== Proof.PointValues.lean ====
/-
  One grid point at a time: what the body leaves in the scratch and in the two outputs' blocks at point t, in
  terms of the tile's running row minimum and column minimum of the blocks the point reads, and of what the
  scratch held after the point before. Also the step that extends a bound from the first k tiles of a row to one
  tile more.
-/
import proofs.«164395_j85478439125595_2_alg».proof.Proof.Pieces
import proofs.«164395_j85478439125595_2_alg».proof.Proof.BlockReads

noncomputable section

namespace Cert.KernelIdeal.Points

open Cert.KernelIdeal Cert.KernelIdeal.Gen Cert.KernelIdeal.Tile Cert.KernelIdeal.Pieces Cert.KernelIdeal.Blocks Cert.Chamfer
open Idealize.ShloMosaic Idealize.ShloMosaic.TcCoe Idealize.ShloMosaic.ValueIdx Idealize.SL.Sem

variable (m : (ℓ : Loc nD τ sig) → Buf (Elt Ideal) ℓ)

/-- A bound that lies below the members numbered under k · 1024 and below one more tile of 1024 members lies
    below the members numbered under (k + 1) · 1024, and conversely. -/
theorem extend_iff (D : Fin 8192 → EReal) (cst : EReal) (k : ℕ) (hk : k < 8) (T : Fin 1024 → EReal)
    (hT : ∀ (q : Fin 1024) (mm : Fin 8192), mm.val = k * 1024 + q.val → T q = D mm) (P : Prop)
    (hP : P ↔ ∀ mm : Fin 8192, mm.val < k * 1024 → cst ≤ D mm) :
    (P ∧ ∀ q, cst ≤ T q) ↔ ∀ mm : Fin 8192, mm.val < (k + 1) * 1024 → cst ≤ D mm := by
  constructor
  · rintro ⟨hp, hq⟩ mm hlt
    by_cases h : mm.val < k * 1024
    · exact hP.mp hp mm h
    · have hq' := hq ⟨mm.val - k * 1024, by omega⟩
      rwa [hT ⟨mm.val - k * 1024, by omega⟩ mm (by show mm.val = k * 1024 + (mm.val - k * 1024); omega)] at hq'
  · intro h
    refine ⟨hP.mpr fun mm hlt => h mm (by omega), fun q => ?_⟩
    have hq := q.isLt
    rw [hT q ⟨k * 1024 + q.val, by omega⟩ rfl]
    exact h _ (by show k * 1024 + q.val < (k + 1) * 1024; omega)

/-- The accumulated contents depend on the point's number only. -/
theorem outsAt0_congr (c : Dev nD) (n n' : ℕ) (h : n = n') (hn : n < cfg0.N) (hn' : n' < cfg0.N) :
    outsAt0 m c n hn = outsAt0 m c n' hn' := by subst h; rfl

/-- The scratch after the first tile of a row block. -/
theorem scratchAt_A (c : Dev nD) (t : Fin cfg0.N) (h0 : t.val % 8 = 0) (h1 : ¬t.val % 8 = 7) :
    (outsAt0 m c t.val t.isLt).2.2 = k0_pay3 (F := Ideal) (iblk m c 0 t) (iblk m c 1 t) (k0_pay1 (F := Ideal)) := by
  have e := sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  rw [outsAt0_A m c t h0 h1]
  dsimp only
  exact e

/-- The scratch after a middle tile. -/
theorem scratchAt_B (c : Dev nD) (t : Fin cfg0.N) (h0 : ¬t.val % 8 = 0) (h1 : ¬t.val % 8 = 7) :
    (outsAt0 m c t.val t.isLt).2.2 = k0_pay3 (F := Ideal) (iblk m c 0 t) (iblk m c 1 t)
      (outsAt0 m c (t.val - 1) (Nat.lt_of_le_of_lt (Nat.sub_le _ _) t.isLt)).2.2 := by
  have e := sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2
  rw [outsAt0_B m c t h0 h1]
  dsimp only
  exact e

/-- The scratch after the last tile. -/
theorem scratchAt_C (c : Dev nD) (t : Fin cfg0.N) (h0 : ¬t.val % 8 = 0) (h1 : t.val % 8 = 7) :
    (outsAt0 m c t.val t.isLt).2.2 = k0_pay3 (F := Ideal) (iblk m c 0 t) (iblk m c 1 t)
      (outsAt0 m c (t.val - 1) (Nat.lt_of_le_of_lt (Nat.sub_le _ _) t.isLt)).2.2 := by
  have e := sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  rw [outsAt0_C m c t h0 h1]
  dsimp only
  exact e

/-- The first output's block after the last tile is the scratch as just updated. -/
theorem out2At_C (c : Dev nD) (t : Fin cfg0.N) (h0 : ¬t.val % 8 = 0) (h1 : t.val % 8 = 7) :
    (outsAt0 m c t.val t.isLt).1 = (outsAt0 m c t.val t.isLt).2.2 := by
  have e2 := out_C_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  have es := sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  rw [outsAt0_C m c t h0 h1]
  dsimp only
  exact e2.trans es.symm

/-- The second output's block after any tile is the tile's column minimum. -/
theorem out3At (c : Dev nD) (t : Fin cfg0.N) :
    (outsAt0 m c t.val t.isLt).2.1 = k0_pay4 (F := Ideal) (iblk m c 0 t) (iblk m c 1 t) := by
  by_cases h0 : t.val % 8 = 0
  · have h1 : ¬t.val % 8 = 7 := by omega
    have e := out_A_3 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
    rw [outsAt0_A m c t h0 h1]
    dsimp only
    exact e
  · by_cases h1 : t.val % 8 = 7
    · have e := out_C_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
      rw [outsAt0_C m c t h0 h1]
      dsimp only
      exact e
    · have e := out_B_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2
      rw [outsAt0_B m c t h0 h1]
      dsimp only
      exact e

end Cert.KernelIdeal.Points

end
-- ==== Proof.GridInvariant.lean ====
/-
  What the buffers hold after each grid point. Grid point t works on row block t / 8 and column block t % 8, and
  the points of one row block follow one another. After point t the scratch holds, for each of the row block's 512
  points, the least squared distance to the second cloud's points seen so far, those of column blocks 0 … t % 8:
  a bound lies below it exactly when it lies below the squared distance to every such point (induction over the
  grid points; the scratch restarts from +∞ when a row block begins). After the last column block this is the
  least squared distance to the whole second cloud, and that is what the first output's block receives. The second
  output's block at point t holds, for each of the column block's 1024 points, the least squared distance to the
  row block's 512 points.
-/
import proofs.«164395_j85478439125595_2_alg».proof.Proof.PointValues

noncomputable section

namespace Cert.KernelIdeal.Grid

open Cert.KernelIdeal Cert.KernelIdeal.Gen Cert.KernelIdeal.Tile Cert.KernelIdeal.Pieces Cert.KernelIdeal.Blocks Cert.KernelIdeal.Points Cert.Chamfer
open Idealize.ShloMosaic Idealize.ShloMosaic.TcCoe Idealize.ShloMosaic.ValueIdx Idealize.SL.Sem

variable (m : (ℓ : Loc nD τ sig) → Buf (Elt Ideal) ℓ)

/-! Arithmetic of the grid's numbering: point a, when it is not the first of its row block, follows point a - 1 of
the same row block, one column block further. -/

theorem mod_pred (a : ℕ) (h : ¬a % 8 = 0) : (a - 1) % 8 + 1 = a % 8 := by omega
theorem div_pred (a : ℕ) (h : ¬a % 8 = 0) : (a - 1) / 8 = a / 8 := by omega
theorem pred_eq (a n : ℕ) (h : a = n + 1) : a - 1 = n := by omega
theorem row_lt (a r : ℕ) (ha : a < 128) (hr : r < 512) : a / 8 * 512 + r < 8192 := by omega

/-- THE INVARIANT. After point t the scratch at row r holds the least squared distance from point t / 8 · 512 + r
    of the first cloud to the points of the second cloud numbered under (t % 8 + 1) · 1024. -/
theorem scratch_le_iff_aux (c : Dev nD) : ∀ (n : ℕ) (t : Fin cfg0.N), t.val = n → ∀ (b : Fin 4) (r : Fin 512) (nn : Fin 8192)
    (hnn : nn.val = t.val / 8 * 512 + r.val) (cst : EReal),
    cst ≤ (outsAt0 m c t.val t.isLt).2.2 (ix3 b r (0 : Fin 1))
      ↔ ∀ mm : Fin 8192, mm.val < (t.val % 8 + 1) * 1024 → cst ≤ sqDist (cloudA m c) (cloudB m c) b nn mm := by
  -- the first tile of a row block: the scratch restarts from +∞
  have caseA : ∀ (t : Fin cfg0.N), t.val % 8 = 0 → ∀ (b : Fin 4) (r : Fin 512) (nn : Fin 8192)
      (hnn : nn.val = t.val / 8 * 512 + r.val) (cst : EReal),
      cst ≤ (outsAt0 m c t.val t.isLt).2.2 (ix3 b r (0 : Fin 1))
        ↔ ∀ mm : Fin 8192, mm.val < (t.val % 8 + 1) * 1024 → cst ≤ sqDist (cloudA m c) (cloudB m c) b nn mm := by
    intro t h0 b r nn hnn cst
    have h1 : ¬t.val % 8 = 7 := by rw [h0]; decide
    rw [scratchAt_A m c t h0 h1, h0]
    refine (pay3_le_iff (iblk m c 0 t) (iblk m c 1 t) (k0_pay1 (F := Ideal)) b r cst).trans ?_
    refine extend_iff (fun mm => sqDist (cloudA m c) (cloudB m c) b nn mm) cst 0 (by decide) _ (fun q mm hm => ?_) _ ?_
    · exact tile_eq m c t b r q nn mm hnn (by rw [h0]; exact hm)
    · exact ⟨fun _ mm h => absurd h (by rw [Nat.zero_mul]; exact Nat.not_lt_zero _), fun _ => by rw [pay1_apply]; exact le_top⟩
  intro n
  induction n with
  | zero =>
    intro t ht b r nn hnn cst
    exact caseA t (by rw [ht]) b r nn hnn cst
  | succ n ih =>
    intro t ht b r nn hnn cst
    by_cases h0 : t.val % 8 = 0
    · exact caseA t h0 b r nn hnn cst
    · have hlt : t.val - 1 < cfg0.N := Nat.lt_of_le_of_lt (Nat.sub_le _ _) t.isLt
      obtain ⟨t', ht'⟩ : ∃ t' : Fin cfg0.N, t'.val = t.val - 1 := ⟨⟨t.val - 1, hlt⟩, rfl⟩
      have e : (outsAt0 m c t.val t.isLt).2.2 = k0_pay3 (F := Ideal) (iblk m c 0 t) (iblk m c 1 t) (outsAt0 m c t'.val t'.isLt).2.2 := by
        rw [outsAt0_congr m c t'.val (t.val - 1) ht' t'.isLt hlt]
        by_cases h1 : t.val % 8 = 7
        · exact scratchAt_C m c t h0 h1
        · exact scratchAt_B m c t h0 h1
      rw [e]
      refine (pay3_le_iff (iblk m c 0 t) (iblk m c 1 t) _ b r cst).trans ?_
      have hk : t'.val % 8 + 1 = t.val % 8 := by rw [ht']; exact mod_pred t.val h0
      have hn' : t'.val = n := by rw [ht']; exact pred_eq t.val n ht
      have hnn' : nn.val = t'.val / 8 * 512 + r.val := by rw [ht', div_pred t.val h0]; exact hnn
      have ih' := ih t' hn' b r nn hnn' cst
      rw [hk] at ih'
      refine extend_iff (fun mm => sqDist (cloudA m c) (cloudB m c) b nn mm) cst (t.val % 8) (Nat.mod_lt _ (by decide)) _ (fun q mm hm => ?_) _ ih'
      exact tile_eq m c t b r q nn mm hnn hm

/-- The invariant at a grid point. -/
theorem scratch_le_iff (c : Dev nD) (t : Fin cfg0.N) (b : Fin 4) (r : Fin 512) (nn : Fin 8192)
    (hnn : nn.val = t.val / 8 * 512 + r.val) (cst : EReal) :
    cst ≤ (outsAt0 m c t.val t.isLt).2.2 (ix3 b r (0 : Fin 1))
      ↔ ∀ mm : Fin 8192, mm.val < (t.val % 8 + 1) * 1024 → cst ≤ sqDist (cloudA m c) (cloudB m c) b nn mm :=
  scratch_le_iff_aux m c t.val t rfl b r nn hnn cst

/-- After the last tile of a row block the first output's block holds the least squared distance to the whole
    second cloud. -/
theorem out2_eq (c : Dev nD) (t : Fin cfg0.N) (h7 : t.val % 8 = 7) (b : Fin 4) (r : Fin 512) (nn : Fin 8192)
    (hnn : nn.val = t.val / 8 * 512 + r.val) :
    (outsAt0 m c t.val t.isLt).1 (ix3 b r (0 : Fin 1)) = nearRow (cloudA m c) (cloudB m c) b nn := by
  have h0 : ¬t.val % 8 = 0 := by rw [h7]; decide
  refine eq_of_le_iff fun cst => ?_
  rw [out2At_C m c t h0 h7]
  unfold nearRow
  rw [le_foldMin_iff]
  refine (scratch_le_iff m c t b r nn hnn cst).trans ⟨fun h mm => h mm ?_, fun h mm _ => h mm⟩
  rw [h7]
  exact mm.isLt

/-- After any tile the second output's block holds, for each column point, the least squared distance to the row
    block's points. -/
theorem out3_le_iff (c : Dev nD) (t : Fin cfg0.N) (b : Fin 4) (q : Fin 1024) (mm : Fin 8192)
    (hm : mm.val = t.val % 8 * 1024 + q.val) (cst : EReal) :
    cst ≤ (outsAt0 m c t.val t.isLt).2.1 (ix3 (0 : Fin 1) b q)
      ↔ ∀ (r : Fin 512) (nn : Fin 8192), nn.val = t.val / 8 * 512 + r.val → cst ≤ sqDist (cloudA m c) (cloudB m c) b nn mm := by
  rw [out3At m c t]
  refine (pay4_le_iff (iblk m c 0 t) (iblk m c 1 t) b q cst).trans ?_
  have ht : t.val < 128 := lt_of_lt_of_eq t.isLt (show cfg0.N = 128 from N_0)
  constructor
  · intro h r nn hnn
    rw [← tile_eq m c t b r q nn mm hnn hm]
    exact h r
  · intro h r
    rw [tile_eq m c t b r q ⟨t.val / 8 * 512 + r.val, row_lt t.val r.val ht r.isLt⟩ mm rfl hm]
    exact h r _ rfl

end Cert.KernelIdeal.Grid

end
-- ==== Proof.ChamferBlocks.lean ====
/-
  The second direction's minimum, taken in two steps. For a point of the second cloud, the least squared distance
  to the first cloud's 8192 points is the least, over the 16 blocks of 512 consecutive points, of the least
  squared distance to a block's points: every point lies in exactly one block (n = (n / 512) · 512 + n % 512),
  and a bound lies below a minimum exactly when it lies below every member.
-/
import proofs.«164395_j85478439125595_2_alg».proof.Proof.ChamferSpec

noncomputable section

namespace Cert.Chamfer

open Idealize.ShloMosaic Idealize.ShloMosaic.ValueIdx

/-- The least squared distance from point `mm` of `q` to the 512 points of block `j` of `p`. -/
def blockCol (p q : Cloud) (j : Fin 16) (b : Fin 4) (mm : Fin 8192) : EReal :=
  (Finset.univ : Finset (Fin 512)).fold min ⊤
    (fun r => sqDist p q b ⟨j.val * 512 + r.val, by have := j.isLt; have := r.isLt; omega⟩ mm)

/-- A bound lies below a block's minimum exactly when it lies below the squared distance to each of its points. -/
theorem le_blockCol_iff (p q : Cloud) (j : Fin 16) (b : Fin 4) (mm : Fin 8192) (c : EReal) :
    c ≤ blockCol p q j b mm ↔ ∀ (r : Fin 512) (n : Fin 8192), n.val = j.val * 512 + r.val → c ≤ sqDist p q b n mm := by
  unfold blockCol
  rw [le_foldMin_iff]
  constructor
  · intro h r n hn
    have e : n = ⟨j.val * 512 + r.val, by have := j.isLt; have := r.isLt; omega⟩ := Fin.ext hn
    rw [e]; exact h r
  · intro h r
    exact h r _ rfl

/-- The minimum over the 16 blocks of the blocks' minima is the minimum over the whole cloud. -/
theorem foldMin_blockCol (p q : Cloud) (b : Fin 4) (mm : Fin 8192) :
    (Finset.univ : Finset (Fin 16)).fold min ⊤ (fun j => blockCol p q j b mm) = nearCol p q b mm := by
  refine eq_of_le_iff fun c => ?_
  unfold nearCol
  rw [le_foldMin_iff, le_foldMin_iff]
  constructor
  · intro h n
    have hn := n.isLt
    exact (le_blockCol_iff p q ⟨n.val / 512, by omega⟩ b mm c).mp (h ⟨n.val / 512, by omega⟩)
      ⟨n.val % 512, Nat.mod_lt _ (by omega)⟩ n (by show n.val = n.val / 512 * 512 + n.val % 512; omega)
  · intro h j
    exact (le_blockCol_iff p q j b mm c).mpr fun r n _ => h n

end Cert.Chamfer

end
-- ==== Proof.Arrays.lean ====
/-
  The two result arrays after the run, each as one function of the clouds. The first output, a [4, 8192, 1] column,
  is written back once per row block, after its last column block, and then holds at (b, n, 0) the least squared
  distance from point n of the first cloud to the second cloud. The second output, [16, 4, 8192], is written back
  at every grid point and holds at (j, b, m) the least squared distance from point m of the second cloud to the
  512 points of row block j of the first. In both cases the blocks written back tile the array, so the array is
  that function everywhere.
-/
import proofs.«164395_j85478439125595_2_alg».proof.Proof.GridInvariant
import proofs.«164395_j85478439125595_2_alg».proof.Proof.ChamferBlocks

noncomputable section

namespace Cert.KernelIdeal.Arrays

open Cert.KernelIdeal Cert.KernelIdeal.Gen Cert.KernelIdeal.Blocks Cert.KernelIdeal.Grid Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The first result array: at (b, n, 0) the least squared distance from point n of the first cloud to the second. -/
def rowsArr (c : Dev nD) : Buf (Elt Ideal) ((c : Thread nD τ).loc main_v1_0) :=
  fun (i : S4x8192x1.Idx) => nearRow (cloudA m c) (cloudB m c) ⟨(i 0).val, (i 0).isLt⟩ ⟨(i 1).val, (i 1).isLt⟩

/-- The second result array: at (j, b, m) the least squared distance from point m of the second cloud to row block j
    of the first. -/
def colsArr (c : Dev nD) : Buf (Elt Ideal) ((c : Thread nD τ).loc main_v1_1) :=
  fun (i : S16x4x8192.Idx) => blockCol (cloudA m c) (cloudB m c) ⟨(i 0).val, (i 0).isLt⟩ ⟨(i 1).val, (i 1).isLt⟩ ⟨(i 2).val, (i 2).isLt⟩

/-! ## The first output -/

/-- What the last tile of a row block leaves at (b, r, 0) is the first result array's entry for point t / 8 · 512 + r. -/
theorem out2_block (c : Dev nD) (t : Fin cfg0.N) (h7 : t.val % 8 = 7) (b : Fin 4) (r : Fin 512) (b' : Fin 4) (nn : Fin 8192)
    (hb : b'.val = b.val) (hnn : nn.val = t.val / 8 * 512 + r.val) :
    (outsAt0 m c t.val t.isLt).1 (ix3 b r (0 : Fin 1)) = nearRow (cloudA m c) (cloudB m c) b' nn := by
  obtain rfl : b' = b := Fin.ext hb
  exact out2_eq m c t h7 b' r nn hnn

/-- What a flushing point writes back is its block of the first result array. -/
theorem flushed2_eq (c : Dev nD) (t : Fin cfg0.N) (hf : (cfg0.win 2).flush t = true) :
    (dats m 0 c).flushed 2 t = ((cfg0.win 2).blk t).view.read (Elt Ideal) (rowsArr m c) := by
  have h7 := (flush0_2 t).mp hf
  obtain ⟨-, -, ⟨e0, e1, e2⟩, -⟩ := idx_facts t
  show (cfg0.win 2).cut (grid0.coords t) ((dats m 0 c).after 2 t) = _
  rw [after0_2]
  funext j
  have hj0 : (j 0).val < 4 := (j 0).isLt
  have hj1 : (j 1).val < 512 := (j 1).isLt
  have hj2 : (j 2).val < 1 := (j 2).isLt
  have hx : ((cfg0.win 2).xinj (grid0.coords t) j : S4x512x1.Idx) = ix3 (⟨(j 0).val, hj0⟩ : Fin 4) (⟨(j 1).val, hj1⟩ : Fin 512) (0 : Fin 1) :=
    funext fun a => Fin.ext (by
      match a with
      | ⟨0, _⟩ => rfl
      | ⟨1, _⟩ => rfl
      | ⟨2, _⟩ => show (j 2).val = 0; omega)
  show (outsAt0 m c t.val t.isLt).1 ((cfg0.win 2).xinj (grid0.coords t) j) = rowsArr m c (((cfg0.win 2).blk t).view.emb j)
  rw [hx]
  unfold rowsArr
  refine out2_block m c t h7 _ _ _ _ ?_ ?_
  · show win0_2.index t (0 : Fin 3) * 4 + 1 * (j 0).val = (j 0).val; rw [e0]; omega
  · show win0_2.index t (1 : Fin 3) * 512 + 1 * (j 1).val = t.val / 8 * 512 + (j 1).val; rw [e1]; omega

/-- An index of the first result array lies in point t's block exactly when each coordinate lies in the block's range. -/
theorem mem_blk2 (t : Fin cfg0.N) (i : S4x8192x1.Idx) :
    i ∈ ((cfg0.win 2).blk t).view.set ↔ ∀ a : Fin 3, win0_2.index t a * S4x512x1.size a ≤ (i a).val
      ∧ (i a).val < win0_2.index t a * S4x512x1.size a + S4x512x1.size a := by
  show i ∈ ((View.whole main_v1_0).slice (win0_2.rect t)).set ↔ _
  rw [View.set_slice_whole, Rect.mem_set_unit]
  exact Iff.rfl

/-- Every index of the first result array is written back: row n by the last point of row block n / 512. -/
theorem cover2 (i : S4x8192x1.Idx) :
    ∃ t : Fin cfg0.N, (cfg0.win 2).flush t = true ∧ i ∈ ((cfg0.win 2).blk t).view.set := by
  have hN : cfg0.N = 128 := N_0
  have h0 : (i 0).val < 4 := (i 0).isLt
  have h1 : (i 1).val < 8192 := (i 1).isLt
  have h2 : (i 2).val < 1 := (i 2).isLt
  have ht : (i 1).val / 512 * 8 + 7 < cfg0.N := by omega
  obtain ⟨-, -, ⟨e0, e1, e2⟩, -⟩ := idx_facts ⟨(i 1).val / 512 * 8 + 7, ht⟩
  refine ⟨⟨(i 1).val / 512 * 8 + 7, ht⟩, (flush0_2 _).mpr (by show ((i 1).val / 512 * 8 + 7) % 8 = 7; omega), ?_⟩
  rw [mem_blk2]
  intro a
  match a with
  | ⟨0, _⟩ =>
    show win0_2.index ⟨(i 1).val / 512 * 8 + 7, ht⟩ (0 : Fin 3) * 4 ≤ (i 0).val ∧ (i 0).val < win0_2.index ⟨(i 1).val / 512 * 8 + 7, ht⟩ (0 : Fin 3) * 4 + 4
    rw [e0]; omega
  | ⟨1, _⟩ =>
    show win0_2.index ⟨(i 1).val / 512 * 8 + 7, ht⟩ (1 : Fin 3) * 512 ≤ (i 1).val ∧ (i 1).val < win0_2.index ⟨(i 1).val / 512 * 8 + 7, ht⟩ (1 : Fin 3) * 512 + 512
    rw [e1]; show ((i 1).val / 512 * 8 + 7) / 8 * 512 ≤ (i 1).val ∧ (i 1).val < ((i 1).val / 512 * 8 + 7) / 8 * 512 + 512; omega
  | ⟨2, _⟩ =>
    show win0_2.index ⟨(i 1).val / 512 * 8 + 7, ht⟩ (2 : Fin 3) * 1 ≤ (i 2).val ∧ (i 2).val < win0_2.index ⟨(i 1).val / 512 * 8 + 7, ht⟩ (2 : Fin 3) * 1 + 1
    rw [e2]; omega

/-- The first result array after the run. -/
theorem final2 (c : Dev nD) : (dats m 0 c).arrAt 2 cfg0.N = rowsArr m c :=
  (dats m 0 c).arrAt_eq_of_cover 2 (rowsArr m c) (flushed2_eq m c) cover2

/-! ## The second output -/

/-- What point t leaves at (0, b, q) is the second result array's entry for row block t / 8 and point t % 8 · 1024 + q. -/
theorem out3_block (c : Dev nD) (t : Fin cfg0.N) (b : Fin 4) (q : Fin 1024) (jj : Fin 16) (b' : Fin 4) (mm : Fin 8192)
    (hj : jj.val = t.val / 8) (hb : b'.val = b.val) (hm : mm.val = t.val % 8 * 1024 + q.val) :
    (outsAt0 m c t.val t.isLt).2.1 (ix3 (0 : Fin 1) b q) = blockCol (cloudA m c) (cloudB m c) jj b' mm := by
  obtain rfl : b' = b := Fin.ext hb
  refine eq_of_le_iff fun cst => ?_
  rw [out3_le_iff m c t b' q mm hm cst, le_blockCol_iff]
  constructor
  · intro h r n hn; exact h r n (by rw [hn, hj])
  · intro h r n hn; exact h r n (by rw [hn, hj])

/-- What every point writes back is its block of the second result array. -/
theorem flushed3_eq (c : Dev nD) (t : Fin cfg0.N) (hf : (cfg0.win 3).flush t = true) :
    (dats m 0 c).flushed 3 t = ((cfg0.win 3).blk t).view.read (Elt Ideal) (colsArr m c) := by
  have hN : cfg0.N = 128 := N_0
  have htl := t.isLt
  obtain ⟨-, -, -, ⟨e0, e1, e2⟩⟩ := idx_facts t
  show (cfg0.win 3).cut (grid0.coords t) ((dats m 0 c).after 3 t) = _
  rw [after0_3]
  funext j
  have hj0 : (j 0).val < 1 := (j 0).isLt
  have hj1 : (j 1).val < 4 := (j 1).isLt
  have hj2 : (j 2).val < 1024 := (j 2).isLt
  have hx : ((cfg0.win 3).xinj (grid0.coords t) j : S1x4x1024.Idx) = ix3 (0 : Fin 1) (⟨(j 1).val, hj1⟩ : Fin 4) (⟨(j 2).val, hj2⟩ : Fin 1024) :=
    funext fun a => Fin.ext (by
      match a with
      | ⟨0, _⟩ => show (j 0).val = 0; omega
      | ⟨1, _⟩ => rfl
      | ⟨2, _⟩ => rfl)
  show (outsAt0 m c t.val t.isLt).2.1 ((cfg0.win 3).xinj (grid0.coords t) j) = colsArr m c (((cfg0.win 3).blk t).view.emb j)
  rw [hx]
  unfold colsArr
  refine out3_block m c t _ _ _ _ _ ?_ ?_ ?_
  · show win0_3.index t (0 : Fin 3) * 1 + 1 * (j 0).val = t.val / 8; rw [e0]; omega
  · show win0_3.index t (1 : Fin 3) * 4 + 1 * (j 1).val = (j 1).val; rw [e1]; omega
  · show win0_3.index t (2 : Fin 3) * 1024 + 1 * (j 2).val = t.val % 8 * 1024 + (j 2).val; rw [e2]; omega

/-- An index of the second result array lies in point t's block exactly when each coordinate lies in the block's range. -/
theorem mem_blk3 (t : Fin cfg0.N) (i : S16x4x8192.Idx) :
    i ∈ ((cfg0.win 3).blk t).view.set ↔ ∀ a : Fin 3, win0_3.index t a * S1x4x1024.size a ≤ (i a).val
      ∧ (i a).val < win0_3.index t a * S1x4x1024.size a + S1x4x1024.size a := by
  show i ∈ ((View.whole main_v1_1).slice (win0_3.rect t)).set ↔ _
  rw [View.set_slice_whole, Rect.mem_set_unit]
  exact Iff.rfl

/-- Every index of the second result array is written back: (j, b, m) by point j · 8 + m / 1024. -/
theorem cover3 (i : S16x4x8192.Idx) :
    ∃ t : Fin cfg0.N, (cfg0.win 3).flush t = true ∧ i ∈ ((cfg0.win 3).blk t).view.set := by
  have hN : cfg0.N = 128 := N_0
  have h0 : (i 0).val < 16 := (i 0).isLt
  have h1 : (i 1).val < 4 := (i 1).isLt
  have h2 : (i 2).val < 8192 := (i 2).isLt
  have ht : (i 0).val * 8 + (i 2).val / 1024 < cfg0.N := by omega
  obtain ⟨-, -, -, ⟨e0, e1, e2⟩⟩ := idx_facts ⟨(i 0).val * 8 + (i 2).val / 1024, ht⟩
  refine ⟨⟨(i 0).val * 8 + (i 2).val / 1024, ht⟩, flush0_3 _, ?_⟩
  rw [mem_blk3]
  intro a
  match a with
  | ⟨0, _⟩ =>
    show win0_3.index ⟨(i 0).val * 8 + (i 2).val / 1024, ht⟩ (0 : Fin 3) * 1 ≤ (i 0).val ∧ (i 0).val < win0_3.index ⟨(i 0).val * 8 + (i 2).val / 1024, ht⟩ (0 : Fin 3) * 1 + 1
    rw [e0]; show ((i 0).val * 8 + (i 2).val / 1024) / 8 * 1 ≤ (i 0).val ∧ (i 0).val < ((i 0).val * 8 + (i 2).val / 1024) / 8 * 1 + 1; omega
  | ⟨1, _⟩ =>
    show win0_3.index ⟨(i 0).val * 8 + (i 2).val / 1024, ht⟩ (1 : Fin 3) * 4 ≤ (i 1).val ∧ (i 1).val < win0_3.index ⟨(i 0).val * 8 + (i 2).val / 1024, ht⟩ (1 : Fin 3) * 4 + 4
    rw [e1]; omega
  | ⟨2, _⟩ =>
    show win0_3.index ⟨(i 0).val * 8 + (i 2).val / 1024, ht⟩ (2 : Fin 3) * 1024 ≤ (i 2).val ∧ (i 2).val < win0_3.index ⟨(i 0).val * 8 + (i 2).val / 1024, ht⟩ (2 : Fin 3) * 1024 + 1024
    rw [e2]; show ((i 0).val * 8 + (i 2).val / 1024) % 8 * 1024 ≤ (i 2).val ∧ (i 2).val < ((i 0).val * 8 + (i 2).val / 1024) % 8 * 1024 + 1024; omega

/-- The second result array after the run. -/
theorem final3 (c : Dev nD) : (dats m 0 c).arrAt 3 cfg0.N = colsArr m c :=
  (dats m 0 c).arrAt_eq_of_cover 3 (colsArr m c) (flushed3_eq m c) cover3

end Cert.KernelIdeal.Arrays

end
-- ==== Proof.MeanPair.lean ====
/-
  The last step both programs share: from the two arrays of nearest squared distances, one entry per point of each
  cloud, the mean of each (the sum of its 4 · 8192 entries divided by 32768) and the sum of the two means. It is
  kept as one function of the two arrays, so that the two programs' results are equal as soon as their arrays are.
-/
import Idealize.ShloMosaic.PureOps.Ideal
import proofs.«164395_j85478439125595_2_alg».proof.Proof.ChamferSpec

noncomputable section

namespace Cert.Chamfer

open Idealize.ShloMosaic Idealize.ShloMosaic.ValueIdx

/-- The mean of `d1` plus the mean of `d2`: each summed over both axes from zero and divided by 32768. -/
def meanPair (h : (⟨2, ![4, 8192]⟩ : Shape).ReducesTo [0, 1] ⟨0, ![]⟩) (h0 : 0 < (⟨0, ![]⟩ : Shape).numel)
    (d1 d2 : FVec Ideal ⟨2, ![4, 8192]⟩ .f32) : FVec Ideal ⟨0, ![]⟩ .f32 :=
  addf
    (Host.divf (F := Ideal) (Host.reduceAdd (F := Ideal) d1 (constant (F := Ideal) ⟨0, ![]⟩ .f32 0x00000000#32) h h0)
      (constant (F := Ideal) ⟨0, ![]⟩ .f32 0x47000000#32))
    (Host.divf (F := Ideal) (Host.reduceAdd (F := Ideal) d2 (constant (F := Ideal) ⟨0, ![]⟩ .f32 0x00000000#32) h h0)
      (constant (F := Ideal) ⟨0, ![]⟩ .f32 0x47000000#32))

/-- The chamfer distance of two clouds: the mean nearest squared distance in each direction, added. -/
def chamfer (h : (⟨2, ![4, 8192]⟩ : Shape).ReducesTo [0, 1] ⟨0, ![]⟩) (h0 : 0 < (⟨0, ![]⟩ : Shape).numel)
    (p q : Cloud) : FVec Ideal ⟨0, ![]⟩ .f32 :=
  meanPair h h0 (fun i => nearRow p q ⟨(i 0).val, (i 0).isLt⟩ ⟨(i 1).val, (i 1).isLt⟩)
    (fun i => nearCol p q ⟨(i 0).val, (i 0).isLt⟩ ⟨(i 1).val, (i 1).isLt⟩)

end Cert.Chamfer

end
-- ==== Proof.KernelValue.lean ====
/-
  The kernel program's result. After the region the host reshapes the first result array [4, 8192, 1] to [4, 8192]
  — the nearest squared distance for each point of the first cloud —, takes the minimum of the second result array
  [16, 4, 8192] over its 16 row blocks — the nearest squared distance for each point of the second cloud, since the
  least over the blocks of the blocks' minima is the minimum over the whole cloud —, and adds the two means. So the
  program ends with the chamfer distance of the two clouds in its result buffer and its arguments unchanged.
-/
import proofs.«164395_j85478439125595_2_alg».proof.Proof.Arrays
import proofs.«164395_j85478439125595_2_alg».proof.Proof.MeanPair
import Idealize.ShloMosaic.Lib.StableHlo.Run
import Idealize.ShloMosaic.PureOps.Ideal.Laws

noncomputable section

namespace Cert.KernelIdeal.KValue

open Cert.KernelIdeal Cert.KernelIdeal.Gen Cert.KernelIdeal.Blocks Cert.KernelIdeal.Arrays Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The column [4, 8192, 1] viewed as [4, 8192] reads (b, n) at (b, n, 0). -/
theorem cast_rows {α : Type} (v : (⟨3, ![4, 8192, 1]⟩ : Shape).Idx → α) (h : (⟨3, ![4, 8192, 1]⟩ : Shape).ShapeCasts ⟨2, ![4, 8192]⟩)
    (b : Fin 4) (n : Fin 8192) : shapeCast ⟨2, ![4, 8192]⟩ v h (ix2 b n) = v (ix3 b n (0 : Fin 1)) :=
  shapeCast_apply v h _ _ (by
    rw [Shape.rowMajor_val_two, Shape.rowMajor_val_three]
    show (b.val * 8192 + n.val) * 1 + 0 = b.val * 8192 + n.val
    omega)

/-- The first result array, reshaped: the nearest squared distance for each point of the first cloud. -/
theorem rows_eq (c : Dev nD) :
    shapeCast S4x8192 (rowsArr m c) shapeCasts_S4x8192x1_S4x8192
      = fun i => nearRow (cloudA m c) (cloudB m c) ⟨(i 0).val, (i 0).isLt⟩ ⟨(i 1).val, (i 1).isLt⟩ := by
  funext i
  obtain ⟨b, n, rfl⟩ : ∃ (b : Fin 4) (n : Fin 8192), i = ix2 b n := ⟨i 0, i 1, eq_ix2 i⟩
  exact cast_rows _ _ b n

/-- The second result array, reduced over its row blocks: the nearest squared distance for each point of the second
    cloud. -/
theorem cols_eq (c : Dev nD) :
    Host.reduce (FloatOps.minimumf (F := Ideal) (φ := .f32)) (colsArr m c) (constant (F := Ideal) S_ .f32 0x7F800000#32)
        reducesTo_S16x4x8192_S4x8192_d0 h_S_
      = fun i => nearCol (cloudA m c) (cloudB m c) ⟨(i 0).val, (i 0).isLt⟩ ⟨(i 1).val, (i 1).isLt⟩ := by
  funext i
  obtain ⟨b, mm, rfl⟩ : ∃ (b : Fin 4) (mm : Fin 8192), i = ix2 b mm := ⟨i 0, i 1, eq_ix2 i⟩
  have h : S16x4x8192.Reduces [0] S4x8192 := by decide
  refine (Host.reduce_eq_fold_single (FloatOps.minimumf (F := Ideal) (φ := .f32)) (colsArr m c) _
    reducesTo_S16x4x8192_S4x8192_d0 h h_S_ (ix2 b mm)).trans ?_
  show (Finset.univ : Finset (Fin 16)).fold min (Ideal.ofBits .f32 0x7F800000#32) (fun j => colsArr m c (h.lift (ix2 b mm) j)) = _
  rw [ofBits_inf]
  refine Eq.trans ?_ (foldMin_blockCol (cloudA m c) (cloudB m c) b mm)
  refine congrArg (fun f => (Finset.univ : Finset (Fin 16)).fold min (⊤ : EReal) f) (funext fun j => ?_)
  show colsArr m c (h.lift (ix2 b mm) j) = blockCol (cloudA m c) (cloudB m c) j b mm
  have hl : h.lift (ix2 b mm) j = ix3 j b mm :=
    funext fun a => Fin.ext (by match a with | ⟨0, _⟩ => rfl | ⟨1, _⟩ => rfl | ⟨2, _⟩ => rfl)
  rw [hl]
  rfl

/-- What the program leaves in its result buffer: the chamfer distance of the two clouds. -/
def result (c : Dev nD) : Buf (Elt Ideal) ((c : Thread nD τ).loc main_v8) :=
  chamfer reducesTo_S4x8192_S_d0_1 h_S_ (cloudA m c) (cloudB m c)

/-- The host operations after the region, applied to the two result arrays, give the chamfer distance. -/
theorem tail_eq (c : Dev nD) :
    Pipeline.afterTail₀ cfgs (dats m) 0 (V0 m) [hostOps1] c main_v8 = result m c := by
  have e2 : Pipeline.withArrays spec0 c (V0 m c) (fun w => (dats m 0 c).arrAt w cfg0.N) (Proc.devRef .tc main_v1_0) = rowsArr m c :=
    (Pipeline.withArrays_arr spec0 launch0.win.arr_inj c _ _ 2).trans (final2 m c)
  have e3 : Pipeline.withArrays spec0 c (V0 m c) (fun w => (dats m 0 c).arrAt w cfg0.N) (Proc.devRef .tc main_v1_1) = colsArr m c :=
    (Pipeline.withArrays_arr spec0 launch0.win.arr_inj c _ _ 3).trans (final3 m c)
  unfold Pipeline.afterTail₀
  show StableHlo.after hostOps1 _ (Proc.devRef .tc main_v8) = _
  after_results
  rw [e2, e3]
  unfold result chamfer
  rw [← rows_eq m c, ← cols_eq m c]
  rfl

/-- The run, read: the result buffer ends at the chamfer distance, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefNear.lean ====
/-
  The reference's two nearest-point minima, as mathematics. The reference forms, for every pair of a point of the
  first cloud and a point of the second, the number |a|² + |c|² - 2 a·c cut off below at 0, and then takes the
  minimum of that matrix along each of its two point axes, from +∞. Over the extended reals, and for clouds all of
  whose coordinates are real numbers, each entry is the squared distance |a - c|²: the squares expand over the
  reals, and a sum of squares is non-negative, so the cut-off is the identity (the expansion needs real
  coordinates: multiplication does not distribute over addition at the infinities). Hence the minimum along the
  second cloud is the least squared distance from a point of the first cloud to the second (`near_row`), and the
  minimum along the first cloud the least squared distance from a point of the second to the first (`near_col`).
-/
import proofs.«164395_j85478439125595_2_alg».proof.Proof.Gen.ReferenceIdeal.Read
import proofs.«164395_j85478439125595_2_alg».proof.Proof.ChamferSpec
import Idealize.ShloMosaic.Lib.ValueIdx
import Idealize.ShloMosaic.PureOps.Ideal.Laws
import Mathlib.Data.EReal.Operations
import Mathlib.Tactic.Ring

noncomputable section

namespace Cert.ReferenceIdeal.RefValue

open Cert.ReferenceIdeal Cert.ReferenceIdeal.Gen Cert.ReferenceIdeal.Read Cert.Chamfer Idealize.ShloMosaic Idealize.ShloMosaic.ValueIdx

/-! ### The index maps of the reference, at an index given by its coordinates -/

/-- The row operand of entry `(b, n, m)` is read at point `n` of batch `b`, coordinate `k`. -/
theorem idx_row (b : Fin 4) (n m : Fin 8192) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The column operand of entry `(b, n, m)` is read at point `m` of batch `b`, coordinate `k`. -/
theorem idx_col (b : Fin 4) (n m : Fin 8192) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The left factor of the inner product at entry `(b, n, m)` is point `n` of batch `b`. -/
theorem lidx_dot (b : Fin 4) (n m : Fin 8192) (k : Fin 3) : lidx_main_v4 (ix3 b n m) k = ix3 b n k :=
  funext fun a => Fin.ext (by match a with | ⟨0, _⟩ => rfl | ⟨1, _⟩ => rfl | ⟨2, _⟩ => rfl)

/-- The right factor of the inner product at entry `(b, n, m)` is point `m` of batch `b`. -/
theorem ridx_dot (b : Fin 4) (n m : Fin 8192) (k : Fin 3) : ridx_main_v4 (ix3 b n m) k = ix3 b m k :=
  funext fun a => Fin.ext (by match a with | ⟨0, _⟩ => rfl | ⟨1, _⟩ => rfl | ⟨2, _⟩ => rfl)

/-! ### The algebra of squares -/

/-- For real coordinates, `|a|² + |c|² - 2 a·c`, cut off below at 0, is `|a - c|²`: expand the three squares;
    a sum of squares is non-negative, so the cut-off changes nothing. -/
theorem sq_expand (a0 a1 a2 c0 c1 c2 : ℝ) :
    max ((0 + ((a0 : EReal) * a0 + (a1 : EReal) * a1 + (a2 : EReal) * a2)
          + (0 + ((c0 : EReal) * c0 + (c1 : EReal) * c1 + (c2 : EReal) * c2)))
        - ((2 : ℝ) : EReal) * ((a0 : EReal) * c0 + (a1 : EReal) * c1 + (a2 : EReal) * c2)) 0
      = ((a0 : EReal) - c0) * ((a0 : EReal) - c0) + ((a1 : EReal) - c1) * ((a1 : EReal) - c1)
        + ((a2 : EReal) - c2) * ((a2 : EReal) - c2) := by
  simp only [zero_add, ← EReal.coe_mul, ← EReal.coe_add, ← EReal.coe_sub]
  rw [show a0 * a0 + a1 * a1 + a2 * a2 + (c0 * c0 + c1 * c1 + c2 * c2) - 2 * (a0 * c0 + a1 * c1 + a2 * c2)
        = (a0 - c0) * (a0 - c0) + (a1 - c1) * (a1 - c1) + (a2 - c2) * (a2 - c2) by ring]
  exact max_eq_left (EReal.coe_nonneg.mpr
    (add_nonneg (add_nonneg (mul_self_nonneg _) (mul_self_nonneg _)) (mul_self_nonneg _)))

/-! ### One entry of the distance matrix -/

/-- For clouds of real points, entry `(b, n, m)` of the reference's matrix is the squared distance between point
    `n` of the first cloud and point `m` of the second, in batch `b`. -/
theorem entry (x0 x1 : FVec Ideal S4x8192x3 .f32) (h0 : AllReal x0) (h1 : AllReal x1) (b : Fin 4)
    (n m : Fin 8192) : val_main_v14 (F := Ideal) x0 x1 (ix3 b n m) = sqDist x0 x1 b n m := by
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply, val_main_cst_apply, val_main_cst_0_apply,
    val_main_cst_1_apply, val_main_cst_2_apply]
  simp only [val_main_v0_apply, val_main_v2_apply, Fin.sum_univ_three, idx_row, idx_col, lidx_dot, ridx_dot,
    Ideal.addf_def, Ideal.subf_def, Ideal.mulf_def, Ideal.maximumf_def, Ideal.ofBits_def, ofBits_two,
    Ideal.ofBits_zero_f32]
  obtain ⟨a0, ha0⟩ := h0 (ix3 b n (0 : Fin 3))
  obtain ⟨a1, ha1⟩ := h0 (ix3 b n (1 : Fin 3))
  obtain ⟨a2, ha2⟩ := h0 (ix3 b n (2 : Fin 3))
  obtain ⟨c0, hc0⟩ := h1 (ix3 b m (0 : Fin 3))
  obtain ⟨c1, hc1⟩ := h1 (ix3 b m (1 : Fin 3))
  obtain ⟨c2, hc2⟩ := h1 (ix3 b m (2 : Fin 3))
  unfold sqDist
  rw [ha0, ha1, ha2, hc0, hc1, hc2]
  exact sq_expand a0 a1 a2 c0 c1 c2

/-! ### The two minima -/

/-- A minimum over the last axis, read at row `(b, n)`: the fold of `min` over the row's entries, from the
    initial value. -/
theorem reduce_last (y : S4x8192x8192.Idx → EReal) (init : S_.Idx → EReal) (b : Fin 4) (n : Fin 8192) :
    Host.reduce (FloatOps.minimumf (F := Ideal) (φ := .f32)) y init reducesTo_S4x8192x8192_S4x8192_d2 h_S_ (ix2 b n)
      = (Finset.univ : Finset (Fin 8192)).fold min (init (Shape.Idx.first h_S_)) (fun m => y (ix3 b n m)) := by
  have h : S4x8192x8192.Reduces [2] S4x8192 := by decide
  refine (Host.reduce_eq_fold_single (FloatOps.minimumf (F := Ideal) (φ := .f32)) y init
    reducesTo_S4x8192x8192_S4x8192_d2 h h_S_ (ix2 b n)).trans ?_
  show (Finset.univ : Finset (Fin 8192)).fold min (init (Shape.Idx.first h_S_)) (fun m => y (h.lift (ix2 b n) m)) = _
  refine congrArg (fun f => (Finset.univ : Finset (Fin 8192)).fold min (init (Shape.Idx.first h_S_)) f)
    (funext fun m => congrArg y ?_)
  exact funext fun a => Fin.ext (by match a with | ⟨0, _⟩ => rfl | ⟨1, _⟩ => rfl | ⟨2, _⟩ => rfl)

/-- A minimum over the middle axis, read at column `(b, m)`: the fold of `min` over the column's entries, from
    the initial value. -/
theorem reduce_mid (y : S4x8192x8192.Idx → EReal) (init : S_.Idx → EReal) (b : Fin 4) (m : Fin 8192) :
    Host.reduce (FloatOps.minimumf (F := Ideal) (φ := .f32)) y init reducesTo_S4x8192x8192_S4x8192_d1 h_S_ (ix2 b m)
      = (Finset.univ : Finset (Fin 8192)).fold min (init (Shape.Idx.first h_S_)) (fun n => y (ix3 b n m)) := by
  have h : S4x8192x8192.Reduces [1] S4x8192 := by decide
  refine (Host.reduce_eq_fold_single (FloatOps.minimumf (F := Ideal) (φ := .f32)) y init
    reducesTo_S4x8192x8192_S4x8192_d1 h h_S_ (ix2 b m)).trans ?_
  show (Finset.univ : Finset (Fin 8192)).fold min (init (Shape.Idx.first h_S_)) (fun n => y (h.lift (ix2 b m) n)) = _
  refine congrArg (fun f => (Finset.univ : Finset (Fin 8192)).fold min (init (Shape.Idx.first h_S_)) f)
    (funext fun n => congrArg y ?_)
  exact funext fun a => Fin.ext (by match a with | ⟨0, _⟩ => rfl | ⟨1, _⟩ => rfl | ⟨2, _⟩ => rfl)

/-- For clouds of real points the reference's minimum over the second cloud, at point `n` of batch `b`, is the least
    squared distance from that point to the second cloud. -/
theorem near_row (x0 x1 : FVec Ideal S4x8192x3 .f32) (h0 : AllReal x0) (h1 : AllReal x1) (b : Fin 4) (n : Fin 8192) :
    val_main_v15 (F := Ideal) x0 x1 (ix2 b n) = nearRow x0 x1 b n := by
  unfold val_main_v15 nearRow
  refine (reduce_last _ _ b n).trans ?_
  rw [val_main_cst_3_apply, Ideal.ofBits_def, ofBits_inf]
  exact congrArg (fun f => (Finset.univ : Finset (Fin 8192)).fold min (⊤ : EReal) f)
    (funext fun m => entry x0 x1 h0 h1 b n m)

/-- For clouds of real points the reference's minimum over the first cloud, at point `m` of batch `b`, is the least
    squared distance from that point to the first cloud. -/
theorem near_col (x0 x1 : FVec Ideal S4x8192x3 .f32) (h0 : AllReal x0) (h1 : AllReal x1) (b : Fin 4) (m : Fin 8192) :
    val_main_v16 (F := Ideal) x0 x1 (ix2 b m) = nearCol x0 x1 b m := by
  unfold val_main_v16 nearCol
  refine (reduce_mid _ _ b m).trans ?_
  rw [val_main_cst_4_apply, Ideal.ofBits_def, ofBits_inf]
  exact congrArg (fun f => (Finset.univ : Finset (Fin 8192)).fold min (⊤ : EReal) f)
    (funext fun n => entry x0 x1 h0 h1 b n m)

end Cert.ReferenceIdeal.RefValue

end
-- ==== Proof.FiniteInputs.lean ====
/-
  The finiteness precondition, as mathematics. The predicate takes, for each of the two clouds, the conjunction over
  all coordinates x of the strict comparison |x| < +∞, and then the conjunction of the two results. Over the
  extended reals |x| is max x (-x), which is +∞ at both infinities; so the predicate being true says that every
  coordinate of both clouds is a real number — the hypothesis under which the squares in a squared distance expand.
-/
import proofs.«164395_j85478439125595_2_alg».proof.Defs
import proofs.«164395_j85478439125595_2_alg».proof.Proof.ChamferSpec
import Idealize.ShloMosaic.Lib.ReduceAll
import Idealize.ShloMosaic.Lib.ValueIdx

noncomputable section

namespace Cert.Proof.Finite

open Idealize.ShloMosaic Idealize.ShloMosaic.ValueIdx

/-- The scalar shape has exactly one index. -/
instance : Subsingleton Cert.Pre_finite_inputs.S_.Idx := ⟨fun a b => funext fun d => d.elim0⟩

/-- A strict comparison of extended reals that came out true: the left side is below the right. -/
theorem lt_of_cmp_olt {a b : EReal} (h : Ideal.cmp .olt a b = 1#1) : a < b := by
  unfold Ideal.cmp at h
  by_contra hn
  simp [hn] at h

/-- An extended real whose absolute value `max x (-x)` is below +∞ is a real number: +∞ is its own absolute
    value, and -∞ has absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- One cloud: if the conjunction, over all coordinates, of "the absolute value is below +∞" came out true, then
    every coordinate is a real number. -/
theorem allReal_of_all [hPre : Cert.Pre_finite_inputs.Facts] (p : FVec Ideal Cert.Pre_finite_inputs.S4x8192x3 .f32)
    (e : Host.reduce IntOp.andi
          (cmpf .olt (Host.absf p)
            (broadcastInDim Cert.Pre_finite_inputs.S4x8192x3 ![] Cert.Pre_finite_inputs.Facts.bcast_S_S4x8192x3
              (constant Cert.Pre_finite_inputs.S_ .f32 0x7F800000#32)))
          (constantI Cert.Pre_finite_inputs.S_ 1 1#1) Cert.Pre_finite_inputs.Facts.reducesTo_S4x8192x3_S_d0_1_2
          Cert.Pre_finite_inputs.Facts.h_S_ ix0 = 1#1) :
    Cert.Chamfer.AllReal p := by
  intro i
  have hi : Ideal.cmp .olt (max (p i) (-(p i))) (Ideal.ofBits .f32 0x7F800000#32) = 1#1 :=
    Host.reduce_andi_all _ _ _ _ _ e i
  rw [Cert.Chamfer.ofBits_inf] at hi
  exact real_of_abs_lt_top _ (lt_of_cmp_olt hi)

/-- The precondition, read back: when the finiteness predicate of the two clouds is true, every coordinate of
    both clouds is a real number. -/
theorem allReal_of_fn [hPre : Cert.Pre_finite_inputs.Facts] (p q : FVec Ideal Cert.Pre_finite_inputs.S4x8192x3 .f32)
    (h : Cert.Pre_finite_inputs.fn (F := Ideal) p q = fun _ => 1#1) : Cert.Chamfer.AllReal p ∧ Cert.Chamfer.AllReal q := by
  have h' := congrFun h ValueIdx.ix0
  dsimp only [Cert.Pre_finite_inputs.fn] at h'
  obtain ⟨hp, hq⟩ := IntOp.andi_eq_one.1 h'
  exact ⟨allReal_of_all p hp, allReal_of_all q hq⟩

end Cert.Proof.Finite

end
-- ==== Proof.lean ====
/-
  The chamfer distance of two clouds of 4 × 8192 points of 3-space, computed twice. The kernel program forms the
  squared distance of every pair as the three coordinate differences squared and added, tile by tile, keeps a
  running minimum along each row block and a column minimum per tile, and lets the host finish: minimum over the
  row blocks, the two means, their sum. The reference forms |a|² + |c|² - 2 a·c cut off at 0 for every pair, takes
  the two minima over whole axes, and adds the two means.

  Over the extended reals, for clouds whose coordinates are all real numbers — which is what the precondition
  says —, the reference's entry is the same squared distance (the squares expand over the reals, and a sum of
  squares is non-negative, so the cut-off is the identity); a minimum taken tile by tile or block by block is the
  minimum over the whole range, because a bound lies below a minimum exactly when it lies below every member; and
  the last step, the two means added, is one function of the two arrays of minima in both programs. Hence both end
  with the same extended real. The ideal pass rewrote nothing, so that claim is trivial, and the three frame claims
  are the programs' runs with the results dropped.
-/
import proofs.«164395_j85478439125595_2_alg».proof.Defs
import proofs.«164395_j85478439125595_2_alg».proof.Proof.Gen.Kernel
import proofs.«164395_j85478439125595_2_alg».proof.Proof.Gen.Kernel.Frame
import proofs.«164395_j85478439125595_2_alg».proof.Proof.Gen.KernelIdeal
import proofs.«164395_j85478439125595_2_alg».proof.Proof.Gen.KernelIdeal.Frame
import proofs.«164395_j85478439125595_2_alg».proof.Proof.Gen.ReferenceIdeal
import proofs.«164395_j85478439125595_2_alg».proof.Proof.Gen.ReferenceIdeal.Run
import proofs.«164395_j85478439125595_2_alg».proof.Proof.Gen.ReferenceIdeal.Read
import proofs.«164395_j85478439125595_2_alg».proof.Proof.Gen.Pre_finite_inputs
import proofs.«164395_j85478439125595_2_alg».proof.Proof.KernelValue
import proofs.«164395_j85478439125595_2_alg».proof.Proof.RefNear
import proofs.«164395_j85478439125595_2_alg».proof.Proof.FiniteInputs
import proofs.«164395_j85478439125595_2_alg».proof.Proof.MeanPair
import Idealize.ShloMosaic.Adequacy
import Idealize.ShloMosaic.Init

noncomputable section

namespace Cert.Proof

open Idealize.ShloMosaic Idealize.ShloMosaic.TcCoe Idealize.ShloMosaic.ValueIdx Idealize.SL.Sem Cert.Chamfer

/-- The word-level kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- For clouds of real points the reference's result is the chamfer distance: its two arrays of minima are the
    nearest squared distances in the two directions, and its last step is the two means added. -/
theorem ref_result (x0 x1 : FVec Ideal Cert.ReferenceIdeal.S4x8192x3 .f32) (h0 : AllReal x0) (h1 : AllReal x1) :
    Cert.ReferenceIdeal.Read.val_main_v21 (F := Ideal) x0 x1
      = chamfer Cert.ReferenceIdeal.Gen.reducesTo_S4x8192_S_d0_1 Cert.ReferenceIdeal.Gen.h_S_ x0 x1 := by
  have e15 : Cert.ReferenceIdeal.Read.val_main_v15 (F := Ideal) x0 x1
      = fun i => nearRow x0 x1 ⟨(i 0).val, (i 0).isLt⟩ ⟨(i 1).val, (i 1).isLt⟩ := by
    funext i
    obtain ⟨b, n, rfl⟩ : ∃ (b : Fin 4) (n : Fin 8192), i = ix2 b n := ⟨i 0, i 1, eq_ix2 i⟩
    exact Cert.ReferenceIdeal.RefValue.near_row x0 x1 h0 h1 b n
  have e16 : Cert.ReferenceIdeal.Read.val_main_v16 (F := Ideal) x0 x1
      = fun i => nearCol x0 x1 ⟨(i 0).val, (i 0).isLt⟩ ⟨(i 1).val, (i 1).isLt⟩ := by
    funext i
    obtain ⟨b, n, rfl⟩ : ∃ (b : Fin 4) (n : Fin 8192), i = ix2 b n := ⟨i 0, i 1, eq_ix2 i⟩
    exact Cert.ReferenceIdeal.RefValue.near_col x0 x1 h0 h1 b n
  unfold chamfer
  rw [← e15, ← e16]
  rfl

/-- At the ideal instance, from memories that agree on the two clouds and under the finiteness precondition, both
    programs end with the chamfer distance of the clouds. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hB⟩ := Cert.Proof.Finite.allReal_of_fn _ _ (hpre c)
  rw [Cert.ReferenceIdeal.Read.val_main_v21_eq, (hagree c).1, (hagree c).2]
  exact ref_result _ _ hA hB

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
